-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3 : Shape := ⟨2, ![32768, 3]⟩
abbrev S2048x3 : Shape := ⟨2, ![2048, 3]⟩
abbrev S2048 : Shape := ⟨1, ![2048]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32768x3 .f32) (main_arg1 : FVec F S2048x3 .f32) (main_arg2 : FVec F S2048 .f32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S32768x3 : Shape := ⟨2, ![32768, 3]⟩
abbrev S2048x3 : Shape := ⟨2, ![2048, 3]⟩
abbrev S2048 : Shape := ⟨1, ![2048]⟩
abbrev S3x2048 : Shape := ⟨2, ![3, 2048]⟩
abbrev S2048x1 : Shape := ⟨2, ![2048, 1]⟩
abbrev S2048x4 : Shape := ⟨2, ![2048, 4]⟩
abbrev S32768x1 : Shape := ⟨2, ![32768, 1]⟩
abbrev S512x3 : Shape := ⟨2, ![512, 3]⟩
abbrev S512x1 : Shape := ⟨2, ![512, 1]⟩
abbrev S1x2048 : Shape := ⟨2, ![1, 2048]⟩
abbrev S512x2048 : Shape := ⟨2, ![512, 2048]⟩
abbrev S512x4 : Shape := ⟨2, ![512, 4]⟩
abbrev S32768 : Shape := ⟨1, ![32768]⟩

abbrev nBuf : Space → Nat
  | .hbm => 13
  | .vmem => 9
  | .smem => 0
  | _ => 0

abbrev bufTy : (tb : Table) → Fin (tcTables nBuf tb) → BufTy
  | .hbm, ⟨0, _⟩ => ⟨S32768x3, .f32⟩
  | .hbm, ⟨1, _⟩ => ⟨S2048x3, .f32⟩
  | .hbm, ⟨2, _⟩ => ⟨S2048, .f32⟩
  | .hbm, ⟨3, _⟩ => ⟨S3x2048, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S2048x3, .f32⟩
  | .hbm, ⟨8, _⟩ => ⟨S2048x3, .f32⟩
  | .hbm, ⟨9, _⟩ => ⟨S2048x4, .f32⟩
  | .hbm, ⟨10, _⟩ => ⟨S32768x1, .f32⟩
  | .hbm, ⟨11, _⟩ => ⟨S32768x3, .f32⟩
  | .hbm, ⟨12, _⟩ => ⟨S32768, .f32⟩
  | .local _ .vmem, ⟨0, _⟩ => ⟨S512x3, .f32⟩
  | .local _ .vmem, ⟨1, _⟩ => ⟨S512x3, .f32⟩
  | .local _ .vmem, ⟨2, _⟩ => ⟨S3x2048, .f32⟩
  | .local _ .vmem, ⟨3, _⟩ => ⟨S2048x1, .f32⟩
  | .local _ .vmem, ⟨4, _⟩ => ⟨S2048x4, .f32⟩
  | .local _ .vmem, ⟨5, _⟩ => ⟨S512x1, .f32⟩
  | .local _ .vmem, ⟨6, _⟩ => ⟨S512x1, .f32⟩
  | .local _ .vmem, ⟨7, _⟩ => ⟨S512x3, .f32⟩
  | .local _ .vmem, ⟨8, _⟩ => ⟨S512x3, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2048x3_S3x2048_1_0 : S2048x3.Transposes [1, 0] S3x2048
  shapeCasts_S2048_S2048x1 : S2048.ShapeCasts S2048x1
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  concatenates_S2048x1_S2048x3_S2048x4_d1 : Shape.Concatenates [S2048x1, S2048x3] S2048x4 1
  inb_S512x3_S512x1_0_0 : ∀ a, (![0, 0] : Fin 2 → Nat) a + S512x1.size a ≤ S512x3.size a
  h_S512x1 : 0 < S512x1.numel
  inb_S512x3_S512x1_0_1 : ∀ a, (![0, 1] : Fin 2 → Nat) a + S512x1.size a ≤ S512x3.size a
  inb_S512x3_S512x1_0_2 : ∀ a, (![0, 2] : Fin 2 → Nat) a + S512x1.size a ≤ S512x3.size a
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  broadcasts_S512x1_S512x2048 : S512x1.Broadcasts S512x2048
  broadcasts_S1x2048_S512x2048 : S1x2048.Broadcasts S512x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x1_S512x1_0_0 : ∀ a, (![0, 0] : Fin 2 → Nat) a + S512x1.size a ≤ S512x1.size a
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  shapeCasts_S32768x1_S32768 : S32768x1.ShapeCasts S32768
  dot_S512x2048_S2048x1_S512x1_1_0_0_1_n_n_wf : DotDims.WF S512x2048 S2048x1 S512x1 [1] [0] [0] [1] [] []
  dot_S512x2048_S2048x4_S512x4_1_0_0_1_n_n_wf : DotDims.WF S512x2048 S2048x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S32768x3.size a
  hwx0_0 : ∀ i : grid0.Coords, EltTy.bits .f32 = 32 ∨ (Rect.block (s := S32768x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x2048.size a
  hwx0_1 : ∀ i : grid0.Coords, EltTy.bits .f32 = 32 ∨ (Rect.block (s := S3x2048) S3x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S2048x4.size a
  hwx0_3 : ∀ i : grid0.Coords, EltTy.bits .f32 = 32 ∨ (Rect.block (s := S2048x4) S2048x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S32768x1.size a
  hwx0_4 : ∀ i : grid0.Coords, EltTy.bits .f32 = 32 ∨ (Rect.block (s := S32768x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3.size a ≤ S32768x3.size a
  hwx0_5 : ∀ i : grid0.Coords, EltTy.bits .f32 = 32 ∨ (Rect.block (s := S32768x3) S512x3.size (cc0_transform_5 i) (hinb0_5 i)).WholeWords (EltTy.packing .f32)

variable [Facts₀]

def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf
def dot_S512x2048_S2048x4_S512x4_1_0_0_1_n_n : DotDims S512x2048 S2048x4 S512x4 where
  lhsContracting := [1]
  rhsContracting := [0]
  lhsNonContracting := [0]
  rhsNonContracting := [1]
  lhsBatch := []
  rhsBatch := []
  wf := dot_S512x2048_S2048x4_S512x4_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x3 : Shape := ⟨2, ![32768, 3]⟩
abbrev S2048x3 : Shape := ⟨2, ![2048, 3]⟩
abbrev S2048 : Shape := ⟨1, ![2048]⟩
abbrev S_ : Shape := ⟨0, ![]⟩
abbrev S32768 : Shape := ⟨1, ![32768]⟩
abbrev S32768x1 : Shape := ⟨2, ![32768, 1]⟩
abbrev S3x2048 : Shape := ⟨2, ![3, 2048]⟩
abbrev S32768x2048 : Shape := ⟨2, ![32768, 2048]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S2048x3, .f32⟩
  | .hbm, ⟨2, _⟩ => ⟨S2048, .f32⟩
  | .hbm, ⟨3, _⟩ => ⟨S32768x3, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S3x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S2048x3, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S1x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S32768x3, .f32⟩
  | .hbm, ⟨48, _⟩ => ⟨S32768x3, .f32⟩
  | .hbm, ⟨49, _⟩ => ⟨S32768x3, .f32⟩
  | .hbm, ⟨50, _⟩ => ⟨S32768x3, .f32⟩
  | .hbm, ⟨51, _⟩ => ⟨S_, .f32⟩
  | .hbm, ⟨52, _⟩ => ⟨S32768x3, .f32⟩
  | .hbm, ⟨53, _⟩ => ⟨S32768x3, .f32⟩
  | .hbm, ⟨54, _⟩ => ⟨S_, .f32⟩
  | .hbm, ⟨55, _⟩ => ⟨S32768x3, .f32⟩
  | .hbm, ⟨56, _⟩ => ⟨S32768x3, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S32768x3_S32768_d1 : S32768x3.ReducesTo [1] S32768
  h_S_ : 0 < S_.numel
  bcast_S32768_S32768x1_0 : S32768.BroadcastsInDim S32768x1 (![0] : Fin 1 → Fin S32768x1.rank)
  transposes_S2048x3_S3x2048_1_0 : S2048x3.Transposes [1, 0] S3x2048
  bcast_S_S32768x2048 : S_.BroadcastsInDim S32768x2048 (![] : Fin 0 → Fin S32768x2048.rank)
  bcast_S32768x1_S32768x2048_0_1 : S32768x1.BroadcastsInDim S32768x2048 (![0, 1] : Fin 2 → Fin S32768x2048.rank)
  reducesTo_S2048x3_S2048_d1 : S2048x3.ReducesTo [1] S2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  bcast_S_S32768 : S_.BroadcastsInDim S32768 (![] : Fin 0 → Fin S32768.rank)
  bcast_S32768x1_S32768x3_0_1 : S32768x1.BroadcastsInDim S32768x3 (![0, 1] : Fin 2 → Fin S32768x3.rank)
  bcast_S_S32768x3 : S_.BroadcastsInDim S32768x3 (![] : Fin 0 → Fin S32768x3.rank)
  dot_S32768x3_S3x2048_S32768x2048_1_0_0_1_n_n_wf : DotDims.WF S32768x3 S3x2048 S32768x2048 [1] [0] [0] [1] [] []
  dot_S32768x2048_S2048x3_S32768x3_1_0_0_1_n_n_wf : DotDims.WF S32768x2048 S2048x3 S32768x3 [1] [0] [0] [1] [] []

variable [Facts₀]

def dot_S32768x3_S3x2048_S32768x2048_1_0_0_1_n_n : DotDims S32768x3 S3x2048 S32768x2048 where
  lhsContracting := [1]
  rhsContracting := [0]
  lhsNonContracting := [0]
  rhsNonContracting := [1]
  lhsBatch := []
  rhsBatch := []
  wf := dot_S32768x3_S3x2048_S32768x2048_1_0_0_1_n_n_wf
def dot_S32768x2048_S2048x3_S32768x3_1_0_0_1_n_n : DotDims S32768x2048 S2048x3 S32768x3 where
  lhsContracting := [1]
  rhsContracting := [0]
  lhsNonContracting := [0]
  rhsNonContracting := [1]
  lhsBatch := []
  rhsBatch := []
  wf := dot_S32768x2048_S2048x3_S32768x3_1_0_0_1_n_n_wf

class Facts : Prop extends Facts₀ where

variable [Facts]
-- ==== Proof.FiniteInputs.lean ====
/-
  Finite inputs are real inputs.

  The precondition `finite_inputs` says, of each of the three argument arrays, that every entry `x` has |x| < +∞, and
  takes the conjunction of the three statements; as a function it returns the one-bit word 1 exactly when all of this
  holds. Over the extended reals |x| is `max x (−x)` and +∞ is `⊤` (the float word 0x7F800000 denotes `⊤`), and the
  order is the linear order of `EReal`. An extended real is `⊥`, a real number, or `⊤`; at `⊥` and at `⊤` the value
  `max x (−x)` is `⊤`, which is not below `⊤`. So an array all of whose entries have |x| < +∞ holds only reals:
  every entry is the coercion of a real number. This is the form in which the algebra uses the precondition, since
  a product distributes over a finite sum of reals, and need not over a sum with infinite terms.

  The steps: the function's value at its one index is a conjunction (`and` of one-bit words) of three reductions by
  `and` over all axes; a reduction by `and` that is 1 had a 1 at every index; a 1 at an index is the comparison
  `max (x i) (−x i) < ⊤` decided true; and the case analysis above.
-/
import proofs.«117853_j5927054868974_2_alg».proof.Pre_finite_inputs
import Idealize.ShloMosaic.PureOps.Ideal
import Idealize.ShloMosaic.Lib.ReduceAll
import Idealize.ShloMosaic.Lib.ValueIdx

noncomputable section

namespace Cert.Poisson

open Idealize.ShloMosaic Idealize.ShloMosaic.ValueIdx

/-- An extended real whose absolute value `max x (−x)` is below `⊤` is a real number: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has one index. -/
instance subsingleton_scalar_idx : Subsingleton Cert.Pre_finite_inputs.S_.Idx :=
  ⟨fun a b => funext fun d => d.elim0⟩

/-- The float word 0x7F800000 (sign 0, exponent all ones, fraction 0) denotes +∞. -/
theorem ofBits_inf : Ideal.ofBits .f32 0x7F800000#32 = (⊤ : EReal) := by simp [Ideal.ofBits, Ideal.ieee]

/-- One entry: if the comparison |x| < +∞ comes out 1, then `x` is a real number. -/
theorem real_of_abs_olt_inf (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- One array, of any shape: if "every entry has |x| < +∞" (the comparison against the broadcast constant +∞, reduced
    by `and` over all axes to a scalar) comes out 1, then every entry of the array is a real number. -/
theorem real_of_all_abs_olt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant Cert.Pre_finite_inputs.S_ FTy.f32 0x7F800000#32)))
          (constantI Cert.Pre_finite_inputs.S_ 1 1#1) hr hu ix0 = 1#1) :
    ∀ i, ∃ r : ℝ, x i = (r : EReal) := fun i =>
  real_of_abs_olt_inf (x i) (Host.reduce_andi_all _ _ hr hu ix0 e i)

/-- THE PRECONDITION DECODED: if `finite_inputs` holds of the three argument arrays, every entry of each of them is
    the coercion of a real number. -/
theorem real_of_finite_inputs [Cert.Pre_finite_inputs.Facts]
    (x0 : FVec Ideal Cert.Pre_finite_inputs.S32768x3 .f32) (x1 : FVec Ideal Cert.Pre_finite_inputs.S2048x3 .f32)
    (x2 : FVec Ideal Cert.Pre_finite_inputs.S2048 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the function's value at its one index, with the chain of operations in view
  have e := congrFun h ValueIdx.ix0
  dsimp only [Cert.Pre_finite_inputs.fn] at e
  -- (A ∧ B) ∧ C, each a one-bit word
  obtain ⟨e01, e2⟩ := IntOp.andi_eq_one.1 e
  obtain ⟨e0, e1⟩ := IntOp.andi_eq_one.1 e01
  exact ⟨real_of_all_abs_olt_inf x0 _ _ _ e0, real_of_all_abs_olt_inf x1 _ _ _ e1, real_of_all_abs_olt_inf x2 _ _ _ e2⟩

end Cert.Poisson

end
-- ==== Proof.PoissonSpec.lean ====
/-
  The Poisson estimator, as the kernel computes it, written once as functions of the three argument arrays over the
  extended reals: query points `xq` (32768 × 3), landmarks `xl` (2048 × 3), landmark weights `g` (2048).

  For a query `b` and a landmark `j` the regularised squared distance is
      reg b j = max (|xq b|² − 2 (xq b · xl j) + |xl j|²) 0 + ε²,
  every square and dot product a three-term sum in the coordinates' order, and `rs b j = reg b j ^ (−1/2)`.
  The potential estimate is  pot b = (Σ_j rs b j · g j) · K  and the gradient estimate, coordinate `k`,
      grad b k = (−K) · (xq b k · Σ_j rs b j³ · g j − Σ_j rs b j³ · (g j · xl j k)),
  with `K` the word the kernel multiplies by (the float 1/(4π) with its exponent lowered by 11, that is, divided by 2048)
  and the sums over all 2048 landmarks. Nothing here needs the inputs finite: these are the operations themselves.
-/
import Idealize.ShloMosaic.PureOps.Ideal
import Idealize.ShloMosaic.Lib.ValueIdx

noncomputable section

namespace Cert.Poisson

open Idealize.ShloMosaic Idealize.ShloMosaic.ValueIdx
open scoped BigOperators

/-- The shapes of the argument arrays. -/
abbrev SQ : Shape := ⟨2, ![32768, 3]⟩
abbrev SL : Shape := ⟨2, ![2048, 3]⟩
abbrev SG : Shape := ⟨1, ![2048]⟩

/-- The float words of the computation, read as extended reals: 2, 0, ε² (the float nearest 10⁻⁴), and the scale
    `K` with its negative. -/
abbrev cTwo : EReal := Ideal.ofBits .f32 0x40000000#32
abbrev cZero : EReal := Ideal.ofBits .f32 0x00000000#32
abbrev cEps : EReal := Ideal.ofBits .f32 0x38D1B717#32
abbrev cK : EReal := Ideal.ofBits .f32 0x3822F983#32
abbrev cKn : EReal := Ideal.ofBits .f32 0xB822F983#32

variable (xq : SQ.Idx → EReal) (xl : SL.Idx → EReal) (g : SG.Idx → EReal)

/-- |xq b|², the three squares added in order. -/
def qsq (b : Fin 32768) : EReal :=
  (xq (ix2 b 0) * xq (ix2 b 0) + xq (ix2 b 1) * xq (ix2 b 1)) + xq (ix2 b 2) * xq (ix2 b 2)

/-- |xl j|². -/
def lsq (j : Fin 2048) : EReal :=
  (xl (ix2 j 0) * xl (ix2 j 0) + xl (ix2 j 1) * xl (ix2 j 1)) + xl (ix2 j 2) * xl (ix2 j 2)

/-- xq b · xl j. -/
def qdotl (b : Fin 32768) (j : Fin 2048) : EReal :=
  (xq (ix2 b 0) * xl (ix2 j 0) + xq (ix2 b 1) * xl (ix2 j 1)) + xq (ix2 b 2) * xl (ix2 j 2)

/-- The regularised squared distance between query `b` and landmark `j`. -/
def reg (b : Fin 32768) (j : Fin 2048) : EReal :=
  max ((qsq xq b - cTwo * qdotl xq xl b j) + lsq xl j) cZero + cEps

/-- Its reciprocal square root. -/
def rs (b : Fin 32768) (j : Fin 2048) : EReal := Ideal.rsqrt (reg xq xl b j)

/-- The cube of the reciprocal square root, as two products. -/
def rs3 (b : Fin 32768) (j : Fin 2048) : EReal := (rs xq xl b j * rs xq xl b j) * rs xq xl b j

/-- The potential estimate at query `b`. -/
def pot (b : Fin 32768) : EReal := (∑ j : Fin 2048, rs xq xl b j * g (ix1 j)) * cK

/-- The weighted sum of inverse cubes at query `b`. -/
def csum (b : Fin 32768) : EReal := ∑ j : Fin 2048, rs3 xq xl b j * g (ix1 j)

/-- The weighted sum of inverse cubes times the landmarks' coordinate `k`. -/
def gsum (b : Fin 32768) (k : Fin 3) : EReal := ∑ j : Fin 2048, rs3 xq xl b j * (g (ix1 j) * xl (ix2 j k))

/-- The gradient estimate at query `b`, coordinate `k`. -/
def grad (b : Fin 32768) (k : Fin 3) : EReal := cKn * (xq (ix2 b k) * csum xq xl g b - gsum xq xl g b k)

end Cert.Poisson

end
-- ==== Proof.PoissonRead.lean ====
/-
  The reference program's two results, read at one index, as expressions in the argument arrays.

  At the exact instance every operation of the reference is the extended reals' own, a float sum is its initial
  value plus the finite sum, and a matrix product is the finite sum of products. Reading the program one operation
  at a time gives, for a query `b`, a landmark `j` and a coordinate `k`:
    * the regularised squared distance of the reference is `reg x0 x1 b j` itself (the three-term sums expanded in
      the coordinates' order, the initial zeros dropped);
    * the potential is  (Σ_j (C · rsqrt (reg b j)) · g j) / 2048;
    * the gradient is   ((−C) · (xq b k · Σ_j g j · (reg b j)^(−3/2) − Σ_j (g j · (reg b j)^(−3/2)) · xl j k)) / 2048,
  with `C` the float 1/(4π). No hypothesis on the inputs is needed for these readings.
-/
import proofs.«117853_j5927054868974_2_alg».proof.Proof.Gen.ReferenceIdeal.Read
import proofs.«117853_j5927054868974_2_alg».proof.Proof.PoissonSpec

noncomputable section

namespace Cert.Poisson

open Cert.ReferenceIdeal Cert.ReferenceIdeal.Gen Cert.ReferenceIdeal.Read Idealize.ShloMosaic Idealize.ShloMosaic.ValueIdx
open scoped BigOperators

variable (x0 : FVec Ideal S32768x3 .f32) (x1 : FVec Ideal S2048x3 .f32) (x2 : FVec Ideal S2048 .f32)

/-- The reference's regularised squared distance at query `b`, landmark `j` is `reg`. -/
theorem read_v17 (b : Fin 32768) (j : Fin 2048) :
    val_main_v17 (F := Ideal) x0 x1 (ix2 b j) = reg x0 x1 b j := by
  have e1 : ∀ k : Fin 3, idx_main_v1 (idx_main_v2 (idx_main_v7 (ix2 b j))) k = ix2 b k := fun k =>
    funext fun a => Fin.ext (by match a with | ⟨0, _⟩ => rfl | ⟨1, _⟩ => rfl)
  have e2 : ∀ k : Fin 3, lidx_main_v4 (ix2 b j) k = ix2 b k := fun k =>
    funext fun a => Fin.ext (by match a with | ⟨0, _⟩ => rfl | ⟨1, _⟩ => rfl)
  have e3 : ∀ k : Fin 3, idx_main_v3 (ridx_main_v4 (ix2 b j) k) = ix2 j k := fun k =>
    funext fun a => Fin.ext (by match a with | ⟨0, _⟩ => rfl | ⟨1, _⟩ => rfl)
  have e4 : ∀ k : Fin 3, idx_main_v10 (idx_main_v11 (idx_main_v12 (ix2 b j))) k = ix2 j k := fun k =>
    funext fun a => Fin.ext (by match a with | ⟨0, _⟩ => rfl | ⟨1, _⟩ => rfl)
  rw [val_main_v17_apply, val_main_v16_apply, val_main_cst_3_apply, val_main_v15_apply, val_main_v14_apply,
    val_main_cst_2_apply, val_main_v13_apply, val_main_v12_apply, val_main_v11_apply, val_main_v10_apply,
    val_main_cst_1_apply, val_main_v8_apply, val_main_v7_apply, val_main_v2_apply, val_main_v1_apply,
    val_main_cst_apply, val_main_v6_apply, val_main_v5_apply, val_main_cst_0_apply, val_main_v4_apply]
  simp only [val_main_v0_apply, val_main_v3_apply, val_main_v9_apply, e1, e2, e3, e4, Ideal.ofBits_def,
    Ideal.addf_def, Ideal.subf_def, Ideal.mulf_def, Ideal.maximumf_def, Fin.sum_univ_three, Ideal.ofBits_zero_f32,
    zero_add]
  simp only [reg, qsq, qdotl, lsq, cZero, cTwo, cEps, Ideal.ofBits_zero_f32]

/-- The summand of the reference's potential: (C · rsqrt (reg b j)) · g j. -/
theorem read_v23 (b : Fin 32768) (j : Fin 2048) :
    val_main_v23 (F := Ideal) x0 x1 x2 (ix2 b j)
      = (Ideal.ofBits .f32 0x3DA2F983#32 * Ideal.rsqrt (reg x0 x1 b j)) * x2 (ix1 j) := by
  have e : idx_main_v21 (idx_main_v22 (ix2 b j)) = ix1 j :=
    funext fun a => Fin.ext (by match a with | ⟨0, _⟩ => rfl)
  rw [val_main_v23_apply, val_main_v22_apply, val_main_v21_apply, val_main_v20_apply, val_main_v19_apply,
    val_main_cst_4_apply, val_main_v18_apply, read_v17, e]
  simp only [Ideal.ofBits_def, Ideal.mulf_def, Ideal.hostUnary_rsqrt_def]

/-- The summand of the reference's gradient sums: g j · (reg b j)^(−3/2). -/
theorem read_v31 (b : Fin 32768) (j : Fin 2048) :
    val_main_v31 (F := Ideal) x0 x1 x2 (ix2 b j)
      = x2 (ix1 j) * Ideal.pow (reg x0 x1 b j) (Ideal.ofBits .f32 0xBFC00000#32) := by
  have e : idx_main_v27 (idx_main_v30 (ix2 b j)) = ix1 j :=
    funext fun a => Fin.ext (by match a with | ⟨0, _⟩ => rfl)
  rw [val_main_v31_apply, val_main_v30_apply, val_main_v27_apply, val_main_v29_apply, val_main_v28_apply,
    val_main_cst_7_apply, read_v17, e]
  simp only [Ideal.ofBits_def, Ideal.mulf_def, Ideal.hostPowf_def]

/-- The reference's potential at query `b`. -/
theorem read_v26 (b : Fin 32768) :
    val_main_v26 (F := Ideal) x0 x1 x2 (ix1 b)
      = Ideal.div (∑ j : Fin 2048, (Ideal.ofBits .f32 0x3DA2F983#32 * Ideal.rsqrt (reg x0 x1 b j)) * x2 (ix1 j))
          (Ideal.ofBits .f32 0x45000000#32) := by
  have e : ∀ j : Fin 2048, idx_main_v24 (ix1 b) j = ix2 b j := fun j =>
    funext fun a => Fin.ext (by match a with | ⟨0, _⟩ => rfl | ⟨1, _⟩ => rfl)
  rw [val_main_v26_apply, val_main_v25_apply, val_main_cst_6_apply, val_main_v24_apply, val_main_cst_5_apply]
  simp only [e, read_v23, Ideal.ofBits_def, Ideal.hostDivf_def, Ideal.ofBits_zero_f32, zero_add]

/-- The reference's gradient at query `b`, coordinate `k`. -/
theorem read_v41 (b : Fin 32768) (k : Fin 3) :
    val_main_v41 (F := Ideal) x0 x1 x2 (ix2 b k)
      = Ideal.div (Ideal.ofBits .f32 0xBDA2F983#32 *
          (x0 (ix2 b k) * (∑ j : Fin 2048, x2 (ix1 j) * Ideal.pow (reg x0 x1 b j) (Ideal.ofBits .f32 0xBFC00000#32))
            - ∑ j : Fin 2048, (x2 (ix1 j) * Ideal.pow (reg x0 x1 b j) (Ideal.ofBits .f32 0xBFC00000#32)) * x1 (ix2 j k)))
          (Ideal.ofBits .f32 0x45000000#32) := by
  have e1 : ∀ j : Fin 2048, idx_main_v32 (idx_main_v33 (idx_main_v34 (ix2 b k))) j = ix2 b j := fun j =>
    funext fun a => Fin.ext (by match a with | ⟨0, _⟩ => rfl | ⟨1, _⟩ => rfl)
  have e2 : ∀ j : Fin 2048, lidx_main_v36 (ix2 b k) j = ix2 b j := fun j =>
    funext fun a => Fin.ext (by match a with | ⟨0, _⟩ => rfl | ⟨1, _⟩ => rfl)
  have e3 : ∀ j : Fin 2048, ridx_main_v36 (ix2 b k) j = ix2 j k := fun j =>
    funext fun a => Fin.ext (by match a with | ⟨0, _⟩ => rfl | ⟨1, _⟩ => rfl)
  rw [val_main_v41_apply, val_main_v40_apply, val_main_cst_10_apply, val_main_v39_apply, val_main_v38_apply,
    val_main_cst_9_apply, val_main_v37_apply, val_main_v35_apply, val_main_v34_apply, val_main_v33_apply,
    val_main_v32_apply, val_main_cst_8_apply, val_main_v36_apply]
  simp only [e1, e2, e3, read_v31, Ideal.ofBits_def, Ideal.hostDivf_def, Ideal.mulf_def, Ideal.subf_def,
    Ideal.ofBits_zero_f32, zero_add]

end Cert.Poisson

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.PoissonConsts.lean ====
/-
  The float words of the reference computation, read as the exact reals they denote.

  The word `0x3DA2F983` is the float nearest 1/(4π): mantissa 10680707, exponent −27. The word `0x3822F983` has the
  same mantissa and an exponent lower by 11, so it denotes exactly that real divided by 2048 = 2¹¹; the words
  `0xBDA2F983` and `0xB822F983` are their negatives. The word `0x38D1B717` (the float nearest 10⁻⁴) denotes the
  positive real 13743895 · 2⁻³⁷; `0x45000000` is 2048, `0x40000000` is 2, `0xBFC00000` is −3/2.
-/
import proofs.«117853_j5927054868974_2_alg».proof.Proof.PoissonSpec
import proofs.«117853_j5927054868974_2_alg».proof.Proof.LibERealAlgebra

noncomputable section

namespace Cert.Poisson

open Idealize.ShloMosaic

/-- The real the float nearest 1/(4π) denotes. -/
def realC : ℝ := (10680707 : ℝ) * (2 : ℝ) ^ (-27 : ℤ)

/-- The real the float nearest 10⁻⁴ denotes. -/
def realEps : ℝ := (13743895 : ℝ) * (2 : ℝ) ^ (-37 : ℤ)

theorem realEps_pos : 0 < realEps := by unfold realEps; positivity

/-- The word `0x3DA2F983` denotes `realC`. -/
theorem ofBits_C : Ideal.ofBits .f32 0x3DA2F983#32 = (realC : EReal) := by
  unfold realC
  simp [Ideal.ofBits, Ideal.ieee, -EReal.coe_mul]

/-- The word `0xBDA2F983` denotes `-realC`. -/
theorem ofBits_negC : Ideal.ofBits .f32 0xBDA2F983#32 = ((-realC : ℝ) : EReal) := by
  unfold realC
  simp [Ideal.ofBits, Ideal.ieee, -EReal.coe_mul]

/-- The scale `K` is `realC / 2048`: the same mantissa, the exponent lower by 11. -/
theorem cK_eq : cK = ((realC / 2048 : ℝ) : EReal) := by
  have h : realC / 2048 = (10680707 : ℝ) * (2 : ℝ) ^ (-38 : ℤ) := by
    unfold realC
    rw [show (-38 : ℤ) = -27 - 11 by norm_num, zpow_sub₀ (by norm_num : (2 : ℝ) ≠ 0)]
    norm_num
  rw [h]
  simp [cK, Ideal.ofBits, Ideal.ieee, -EReal.coe_mul]

/-- The negated scale is `-(realC / 2048)`. -/
theorem cKn_eq : cKn = ((-(realC / 2048) : ℝ) : EReal) := by
  have h : realC / 2048 = (10680707 : ℝ) * (2 : ℝ) ^ (-38 : ℤ) := by
    unfold realC
    rw [show (-38 : ℤ) = -27 - 11 by norm_num, zpow_sub₀ (by norm_num : (2 : ℝ) ≠ 0)]
    norm_num
  rw [h]
  simp [cKn, Ideal.ofBits, Ideal.ieee, -EReal.coe_mul]

/-- The regulariser ε² is the positive real `realEps`. -/
theorem cEps_eq : cEps = (realEps : EReal) := by
  unfold realEps
  simp [cEps, Ideal.ofBits, Ideal.ieee, -EReal.coe_mul]

/-- The word `0x40000000` denotes 2. -/
theorem cTwo_eq : cTwo = ((2 : ℝ) : EReal) := by
  simp [cTwo, Ideal.ofBits, Ideal.ieee, -EReal.coe_mul]; norm_num

/-- The zero word denotes 0. -/
theorem cZero_eq : cZero = ((0 : ℝ) : EReal) := by
  rw [cZero, Ideal.ofBits_zero_f32, EReal.coe_zero]

/-- The word `0x45000000` denotes 2048. -/
theorem ofBits_2048 : Ideal.ofBits .f32 0x45000000#32 = ((2048 : ℝ) : EReal) := by
  simp [Ideal.ofBits, Ideal.ieee, -EReal.coe_mul]; norm_num

/-- The word `0xBFC00000` denotes −3/2. -/
theorem ofBits_neg_three_halves : Ideal.ofBits .f32 0xBFC00000#32 = ((-(3 / 2) : ℝ) : EReal) := by
  simp [Ideal.ofBits, Ideal.ieee, -EReal.coe_mul]; norm_num

end Cert.Poisson

end
-- ==== Proof.PoissonAlgebra.lean ====
/-
  The Poisson estimator on finite inputs, as real expressions.

  When every entry of the query and landmark arrays is a real, the regularised squared distance `reg b j` is a real
  `t ≥ ε² > 0` (sums, products and maxima of reals are real, and ε² is a positive real). For a positive real `t` the
  reciprocal square root is `r = (√t)⁻¹`, and the power `t^(−3/2)` is `r · r · r`: `t^(−3/2) = (t^(3/2))⁻¹`,
  `t^(3/2) = (t^(1/2))³ = (√t)³`.

  With `C` the real the float 1/(4π) denotes, `K = C / 2048`, and finite weights `γ` and landmark coordinates `l`, both
  the specification's and the reference's arrangement of each result are then finite sums of reals, and they agree by
  distributivity in ℝ:
      (Σ_j (C · r_j) · γ_j) / 2048 = (Σ_j r_j · γ_j) · (C / 2048),
      (−C) · (x · Σ_j γ_j · p_j − Σ_j (γ_j · p_j) · l_j) / 2048 = (−(C / 2048)) · (x · Σ_j p_j · γ_j − Σ_j p_j · (γ_j · l_j)).
  Distributivity fails at the infinities; that is where the hypothesis "every entry is a real" is used.
-/
import proofs.«117853_j5927054868974_2_alg».proof.Proof.PoissonConsts

noncomputable section

namespace Cert.Poisson

open Idealize.ShloMosaic Idealize.ShloMosaic.ValueIdx
open scoped BigOperators

/-- The maximum of two finite values is the real maximum. -/
theorem coe_max (a b : ℝ) : max (a : EReal) (b : EReal) = ((max a b : ℝ) : EReal) :=
  (EReal.coe_strictMono.monotone.map_max).symm

/-- For a positive real, `t^(−3/2)` is the cube of the reciprocal square root. -/
theorem rpow_neg_three_halves (t : ℝ) (ht : 0 < t) :
    t ^ (-(3 / 2) : ℝ) = ((√t)⁻¹ * (√t)⁻¹) * (√t)⁻¹ := by
  rw [Real.rpow_neg ht.le, show (3 / 2 : ℝ) = (1 / 2) * ((3 : ℕ) : ℝ) by norm_num, Real.rpow_mul ht.le,
    Real.rpow_natCast, ← Real.sqrt_eq_rpow]
  ring

/-- The scale comes out of the potential's sum. -/
theorem pot_scale {ι : Type*} [Fintype ι] (c : ℝ) (r γ : ι → ℝ) :
    (∑ j, (c * r j) * γ j) / 2048 = (∑ j, r j * γ j) * (c / 2048) := by
  have h : ∑ j, (c * r j) * γ j = c * ∑ j, r j * γ j := by
    rw [Finset.mul_sum]
    exact Finset.sum_congr rfl fun j _ => mul_assoc _ _ _
  rw [h]
  ring

/-- The scale comes out of the gradient's difference of sums, and the factors inside the sums commute. -/
theorem grad_scale {ι : Type*} [Fintype ι] (c x : ℝ) (p γ l : ι → ℝ) :
    (-c) * (x * (∑ j, γ j * p j) - ∑ j, (γ j * p j) * l j) / 2048
      = (-(c / 2048)) * (x * (∑ j, p j * γ j) - ∑ j, p j * (γ j * l j)) := by
  have h1 : ∑ j, γ j * p j = ∑ j, p j * γ j := Finset.sum_congr rfl fun j _ => mul_comm _ _
  have h2 : ∑ j, (γ j * p j) * l j = ∑ j, p j * (γ j * l j) := Finset.sum_congr rfl fun j _ => by ring
  rw [h1, h2]
  ring

variable (xq : SQ.Idx → EReal) (xl : SL.Idx → EReal) (g : SG.Idx → EReal)

/-- On real inputs the regularised squared distance is a positive real. -/
theorem reg_real (hq : ∀ i, ∃ r : ℝ, xq i = (r : EReal)) (hl : ∀ i, ∃ r : ℝ, xl i = (r : EReal))
    (b : Fin 32768) (j : Fin 2048) : ∃ t : ℝ, 0 < t ∧ reg xq xl b j = (t : EReal) := by
  obtain ⟨a0, ha0⟩ := hq (ix2 b 0)
  obtain ⟨a1, ha1⟩ := hq (ix2 b 1)
  obtain ⟨a2, ha2⟩ := hq (ix2 b 2)
  obtain ⟨l0, hl0⟩ := hl (ix2 j 0)
  obtain ⟨l1, hl1⟩ := hl (ix2 j 1)
  obtain ⟨l2, hl2⟩ := hl (ix2 j 2)
  refine ⟨max ((((a0 * a0 + a1 * a1) + a2 * a2) - 2 * ((a0 * l0 + a1 * l1) + a2 * l2))
      + ((l0 * l0 + l1 * l1) + l2 * l2)) 0 + realEps,
    add_pos_of_nonneg_of_pos (le_max_right _ _) realEps_pos, ?_⟩
  rw [reg, qsq, qdotl, lsq, ha0, ha1, ha2, hl0, hl1, hl2, cTwo_eq, cZero_eq, cEps_eq]
  simp only [LibEReal.coe_mul, LibEReal.coe_add, LibEReal.coe_sub, coe_max]

section Finite

variable (b : Fin 32768) (t γ : Fin 2048 → ℝ) (ht : ∀ j, 0 < t j)
  (hreg : ∀ j, reg xq xl b j = ((t j : ℝ) : EReal)) (hg : ∀ j, g (ix1 j) = ((γ j : ℝ) : EReal))

include ht hreg in
/-- The reciprocal square root of a positive real distance. -/
theorem rs_real (j : Fin 2048) : rs xq xl b j = (((√(t j))⁻¹ : ℝ) : EReal) := by
  rw [rs, hreg j, LibEReal.rsqrt_coe _ (ht j)]

include ht hreg in
/-- Its cube. -/
theorem rs3_real (j : Fin 2048) :
    rs3 xq xl b j = (((((√(t j))⁻¹ * (√(t j))⁻¹) * (√(t j))⁻¹ : ℝ)) : EReal) := by
  rw [rs3, rs_real xq xl b t ht hreg j, LibEReal.coe_mul, LibEReal.coe_mul]

include ht hreg in
/-- The power `(reg b j)^(−3/2)` of the reference is the same cube. -/
theorem pow_real (j : Fin 2048) :
    Ideal.pow (reg xq xl b j) (Ideal.ofBits .f32 0xBFC00000#32)
      = (((((√(t j))⁻¹ * (√(t j))⁻¹) * (√(t j))⁻¹ : ℝ)) : EReal) := by
  rw [hreg j, ofBits_neg_three_halves, Ideal.pow_coe_coe, Real.rpow_eq_pow, rpow_neg_three_halves _ (ht j)]

include ht hreg hg in
/-- The specification's potential on real inputs. -/
theorem pot_real :
    pot xq xl g b = (((∑ j, (√(t j))⁻¹ * γ j) * (realC / 2048) : ℝ) : EReal) := by
  have h : ∀ j, rs xq xl b j * g (ix1 j) = (((√(t j))⁻¹ * γ j : ℝ) : EReal) := fun j => by
    rw [rs_real xq xl b t ht hreg j, hg j, LibEReal.coe_mul]
  rw [pot, Finset.sum_congr rfl fun j _ => h j, LibEReal.coe_sum, cK_eq, LibEReal.coe_mul]

include ht hreg hg in
/-- The reference's potential on real inputs. -/
theorem refpot_real :
    Ideal.div (∑ j : Fin 2048, (Ideal.ofBits .f32 0x3DA2F983#32 * Ideal.rsqrt (reg xq xl b j)) * g (ix1 j))
        (Ideal.ofBits .f32 0x45000000#32)
      = (((∑ j, (realC * (√(t j))⁻¹) * γ j) / 2048 : ℝ) : EReal) := by
  have h : ∀ j, (Ideal.ofBits .f32 0x3DA2F983#32 * Ideal.rsqrt (reg xq xl b j)) * g (ix1 j)
      = (((realC * (√(t j))⁻¹) * γ j : ℝ) : EReal) := fun j => by
    rw [ofBits_C, hreg j, LibEReal.rsqrt_coe _ (ht j), hg j, LibEReal.coe_mul, LibEReal.coe_mul]
  rw [Finset.sum_congr rfl fun j _ => h j, LibEReal.coe_sum, ofBits_2048, LibEReal.div_coe' _ _ (by norm_num)]

variable (k : Fin 3) (x : ℝ) (l : Fin 2048 → ℝ) (hx : xq (ix2 b k) = ((x : ℝ) : EReal))
  (hl : ∀ j, xl (ix2 j k) = ((l j : ℝ) : EReal))

include ht hreg hg hx hl in
/-- The specification's gradient on real inputs. -/
theorem grad_real :
    grad xq xl g b k = (((-(realC / 2048)) * (x * (∑ j, (((√(t j))⁻¹ * (√(t j))⁻¹) * (√(t j))⁻¹) * γ j)
        - ∑ j, (((√(t j))⁻¹ * (√(t j))⁻¹) * (√(t j))⁻¹) * (γ j * l j)) : ℝ) : EReal) := by
  have h1 : ∀ j, rs3 xq xl b j * g (ix1 j)
      = ((((((√(t j))⁻¹ * (√(t j))⁻¹) * (√(t j))⁻¹) * γ j : ℝ)) : EReal) := fun j => by
    rw [rs3_real xq xl b t ht hreg j, hg j, LibEReal.coe_mul]
  have h2 : ∀ j, rs3 xq xl b j * (g (ix1 j) * xl (ix2 j k))
      = ((((((√(t j))⁻¹ * (√(t j))⁻¹) * (√(t j))⁻¹) * (γ j * l j) : ℝ)) : EReal) := fun j => by
    rw [rs3_real xq xl b t ht hreg j, hg j, hl j, LibEReal.coe_mul, LibEReal.coe_mul]
  rw [grad, csum, gsum, Finset.sum_congr rfl fun j _ => h1 j, Finset.sum_congr rfl fun j _ => h2 j,
    LibEReal.coe_sum, LibEReal.coe_sum, hx, cKn_eq, LibEReal.coe_mul, LibEReal.coe_sub, LibEReal.coe_mul]

include ht hreg hg hx hl in
/-- The reference's gradient on real inputs. -/
theorem refgrad_real :
    Ideal.div (Ideal.ofBits .f32 0xBDA2F983#32 *
        (xq (ix2 b k) * (∑ j : Fin 2048, g (ix1 j) * Ideal.pow (reg xq xl b j) (Ideal.ofBits .f32 0xBFC00000#32))
          - ∑ j : Fin 2048, (g (ix1 j) * Ideal.pow (reg xq xl b j) (Ideal.ofBits .f32 0xBFC00000#32)) * xl (ix2 j k)))
        (Ideal.ofBits .f32 0x45000000#32)
      = (((-realC) * (x * (∑ j, γ j * (((√(t j))⁻¹ * (√(t j))⁻¹) * (√(t j))⁻¹))
          - ∑ j, (γ j * (((√(t j))⁻¹ * (√(t j))⁻¹) * (√(t j))⁻¹)) * l j) / 2048 : ℝ) : EReal) := by
  have h1 : ∀ j, g (ix1 j) * Ideal.pow (reg xq xl b j) (Ideal.ofBits .f32 0xBFC00000#32)
      = (((γ j * (((√(t j))⁻¹ * (√(t j))⁻¹) * (√(t j))⁻¹) : ℝ)) : EReal) := fun j => by
    rw [pow_real xq xl b t ht hreg j, hg j, LibEReal.coe_mul]
  have h2 : ∀ j, (g (ix1 j) * Ideal.pow (reg xq xl b j) (Ideal.ofBits .f32 0xBFC00000#32)) * xl (ix2 j k)
      = ((((γ j * (((√(t j))⁻¹ * (√(t j))⁻¹) * (√(t j))⁻¹)) * l j : ℝ)) : EReal) := fun j => by
    rw [h1 j, hl j, LibEReal.coe_mul]
  rw [Finset.sum_congr rfl fun j _ => h1 j, Finset.sum_congr rfl fun j _ => h2 j, LibEReal.coe_sum,
    LibEReal.coe_sum, hx, ofBits_negC, LibEReal.coe_mul, LibEReal.coe_sub, LibEReal.coe_mul, ofBits_2048,
    LibEReal.div_coe' _ _ (by norm_num)]

end Finite

end Cert.Poisson

end
-- ==== Proof.PoissonReference.lean ====
/-
  The reference computes the Poisson estimator of the specification, on finite inputs.

  Read index by index at the exact instance, the reference's potential at query `b` is
      (Σ_j (C · rsqrt (reg b j)) · g j) / 2048
  and its gradient at `b`, coordinate `k`, is
      ((−C) · (xq b k · Σ_j g j · (reg b j)^(−3/2) − Σ_j (g j · (reg b j)^(−3/2)) · xl j k)) / 2048,
  with `reg` the specification's regularised squared distance. When every input entry is a real, `reg b j` is a
  positive real, so every term is a real and both results are finite sums in ℝ; there the scale `C / 2048` is the
  specification's `K`, the power `t^(−3/2)` is the cube of `(√t)⁻¹`, and distributivity gives the specification's
  `pot` and `grad`.
-/
import proofs.«117853_j5927054868974_2_alg».proof.Proof.PoissonRead
import proofs.«117853_j5927054868974_2_alg».proof.Proof.PoissonAlgebra

noncomputable section

namespace Cert.Poisson

open Cert.ReferenceIdeal Cert.ReferenceIdeal.Gen Idealize.ShloMosaic Idealize.ShloMosaic.ValueIdx
open scoped BigOperators

/-- On real inputs the reference's first result is the specification's potential. -/
theorem reference_pot (x0 : FVec Ideal Cert.ReferenceIdeal.S32768x3 .f32) (x1 : FVec Ideal Cert.ReferenceIdeal.S2048x3 .f32)
    (x2 : FVec Ideal Cert.ReferenceIdeal.S2048 .f32)
    (h0 : ∀ i, ∃ r : ℝ, x0 i = (r : EReal)) (h1 : ∀ i, ∃ r : ℝ, x1 i = (r : EReal))
    (h2 : ∀ i, ∃ r : ℝ, x2 i = (r : EReal)) :
    Cert.ReferenceIdeal.Read.val_main_v26 (F := Ideal) x0 x1 x2 = fun i => Cert.Poisson.pot x0 x1 x2 (i 0) := by
  funext i
  obtain ⟨b, rfl⟩ : ∃ b : Fin 32768, i = ix1 b := ⟨i 0, eq_ix1 i⟩
  show Cert.ReferenceIdeal.Read.val_main_v26 (F := Ideal) x0 x1 x2 (ix1 b) = pot x0 x1 x2 b
  choose t ht hreg using fun j => reg_real x0 x1 h0 h1 b j
  choose γ hγ using fun j => h2 (ix1 j)
  rw [read_v26, refpot_real x0 x1 x2 b t γ ht hreg hγ, pot_real x0 x1 x2 b t γ ht hreg hγ, pot_scale]

/-- On real inputs the reference's second result is the specification's gradient. -/
theorem reference_grad (x0 : FVec Ideal Cert.ReferenceIdeal.S32768x3 .f32) (x1 : FVec Ideal Cert.ReferenceIdeal.S2048x3 .f32)
    (x2 : FVec Ideal Cert.ReferenceIdeal.S2048 .f32)
    (h0 : ∀ i, ∃ r : ℝ, x0 i = (r : EReal)) (h1 : ∀ i, ∃ r : ℝ, x1 i = (r : EReal))
    (h2 : ∀ i, ∃ r : ℝ, x2 i = (r : EReal)) :
    Cert.ReferenceIdeal.Read.val_main_v41 (F := Ideal) x0 x1 x2
      = fun i => Cert.Poisson.grad x0 x1 x2 (i 0) (i 1) := by
  funext i
  obtain ⟨b, k, rfl⟩ : ∃ (b : Fin 32768) (k : Fin 3), i = ix2 b k := ⟨i 0, i 1, eq_ix2 i⟩
  show Cert.ReferenceIdeal.Read.val_main_v41 (F := Ideal) x0 x1 x2 (ix2 b k) = grad x0 x1 x2 b k
  choose t ht hreg using fun j => reg_real x0 x1 h0 h1 b j
  choose γ hγ using fun j => h2 (ix1 j)
  choose l hl using fun j => h1 (ix2 j k)
  obtain ⟨x, hx⟩ := h0 (ix2 b k)
  rw [read_v41, refgrad_real x0 x1 x2 b t γ ht hreg hγ k x l hx hl,
    grad_real x0 x1 x2 b t γ ht hreg hγ k x l hx hl, grad_scale]

end Cert.Poisson

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PoissonBody.lean ====
/-
  The kernel body's arithmetic, read entry by entry at the exact ("ideal") values. The body takes a tile of 512 query
  points (three coordinate columns), the three landmark coordinate rows, the landmark weight column and the 2048 × 4
  weight matrix, and stores four columns. Each stored column is read here at a row `p` as the expression in the tile's
  entries that the estimator's definition spells out.
-/
import proofs.«117853_j5927054868974_2_alg».proof.Proof.Gen.KernelIdeal.Skeleton
import proofs.«117853_j5927054868974_2_alg».proof.Proof.LibKeepdims
import proofs.«117853_j5927054868974_2_alg».proof.Proof.PoissonSpec
import Idealize.ShloMosaic.Lib.ValueLayout
import Idealize.ShloMosaic.Lib.ValueIdx
import Idealize.ShloMosaic.Lib.Pipeline.Value
import Idealize.ShloMosaic.PureOps.Ideal.Laws

noncomputable section

namespace Cert.Poisson.Body

open Cert.KernelIdeal Cert.KernelIdeal.Gen Idealize.ShloMosaic Idealize.ShloMosaic.TcCoe Idealize.ShloMosaic.ValueIdx
open Cert.Poisson
open scoped BigOperators

/-- The regularised squared distance of the tile's row `p` and landmark `j`, from the three query columns and the three
    landmark rows. -/
def regTile (v0 v1 v2 : FVec Ideal S512x1 .f32) (v3 v5 v7 : FVec Ideal S1x2048 .f32) (p : Fin 512) (j : Fin 2048) : EReal :=
  max ((((v0 (ix2 p 0) * v0 (ix2 p 0) + v1 (ix2 p 0) * v1 (ix2 p 0)) + v2 (ix2 p 0) * v2 (ix2 p 0))
        - cTwo * ((v0 (ix2 p 0) * v3 (ix2 0 j) + v1 (ix2 p 0) * v5 (ix2 0 j)) + v2 (ix2 p 0) * v7 (ix2 0 j)))
      + ((v3 (ix2 0 j) * v3 (ix2 0 j) + v5 (ix2 0 j) * v5 (ix2 0 j)) + v7 (ix2 0 j) * v7 (ix2 0 j))) cZero + cEps

/-- The reciprocal-square-root tile at `(p, j)`: columns broadcast along the landmarks, rows along the queries. -/
theorem rsTile_apply (v0 v1 v2 : FVec Ideal S512x1 .f32) (v3 v5 v7 : FVec Ideal S1x2048 .f32) (p : Fin 512) (j : Fin 2048) :
    k0_pay7 (F := Ideal) v0 v1 v2 v3 v5 v7 (ix2 p j) = Ideal.rsqrt (regTile v0 v1 v2 v3 v5 v7 p j) := by
  unfold k0_pay7 regTile
  simp only [shapeCast_self]
  simp only [rsqrt, mulf_apply, addf_apply, subf_apply, maximumf_apply, broadcast_apply,
    Cert.LibKeepdims.broadcastTo_a1_ab_apply, broadcastTo_1b_ab_apply, Ideal.rsqrt_def, Ideal.ofBits_def]

/-- The contraction record of the 512×2048 by 2048×1 product. -/
abbrev dotCol := dot_S512x2048_S2048x1_S512x1_1_0_0_1_n_n

theorem dotCol_lhs0 (i : S512x1.Idx) (q : dotCol.contr.Idx) : (dotCol.lhsIdx i q 0).val = (i 0).val := by
  unfold DotDims.lhsIdx
  rw [dif_neg (show ¬(0 : Fin S512x2048.rank) ∈ dotCol.lhsBatch by decide), dif_pos (show (0 : Fin S512x2048.rank) ∈ dotCol.lhsNonContracting by decide)]
  rfl
theorem dotCol_lhs1 (i : S512x1.Idx) (q : dotCol.contr.Idx) : (dotCol.lhsIdx i q 1).val = (q ⟨0, by decide⟩).val :=
  dotCol.lhsIdx_val_of_single rfl i q
theorem dotCol_rhs0 (i : S512x1.Idx) (q : dotCol.contr.Idx) : (dotCol.rhsIdx i q 0).val = (q ⟨0, by decide⟩).val :=
  dotCol.rhsIdx_val_of_single rfl i q
theorem dotCol_rhs1 (i : S512x1.Idx) (q : dotCol.contr.Idx) : (dotCol.rhsIdx i q 1).val = (i 1).val := by
  unfold DotDims.rhsIdx
  rw [dif_neg (show ¬(1 : Fin S2048x1.rank) ∈ dotCol.rhsBatch by decide), dif_pos (show (1 : Fin S2048x1.rank) ∈ dotCol.rhsNonContracting by decide)]
  rfl

/-- The product into a zero accumulator, read at `(p, n)`: the sum over the 2048 landmarks of the left operand's row `p`
    times the right operand's column `n`. -/
theorem dotCol_apply (l : FVec Ideal S512x2048 .f32) (r : FVec Ideal S2048x1 .f32) (p : Fin 512) (n : Fin 1) :
    matmul (F := Ideal) dotCol (some .fp32) l r (constant S512x1 .f32 0x00000000#32) (ix2 p n)
      = ∑ j : Fin 2048, l (ix2 p j) * r (ix2 j n) := by
  refine (Ideal.matmul_constant_zero_apply dotCol (some .fp32) l r (ix2 p n)).trans ?_
  rw [← Equiv.sum_comp (contrEquiv1 dotCol 2048 rfl rfl).symm]
  refine Finset.sum_congr rfl fun k _ => ?_
  have hk := contrEquiv1_symm_val dotCol 2048 rfl rfl k
  have el : dotCol.lhsIdx (ix2 p n) ((contrEquiv1 dotCol 2048 rfl rfl).symm k) = ix2 p k := funext fun a => Fin.ext (by
    match a with
    | ⟨0, _⟩ => exact dotCol_lhs0 _ _
    | ⟨1, _⟩ => exact (dotCol_lhs1 _ _).trans hk)
  have er : dotCol.rhsIdx (ix2 p n) ((contrEquiv1 dotCol 2048 rfl rfl).symm k) = ix2 k n := funext fun a => Fin.ext (by
    match a with
    | ⟨0, _⟩ => exact (dotCol_rhs0 _ _).trans hk
    | ⟨1, _⟩ => exact dotCol_rhs1 _ _)
  rw [el, er]

/-- The potential column: row `p` of the reciprocal-root tile against the weight column, scaled by `K`. -/
theorem potCol_apply (t : FVec Ideal S512x2048 .f32) (w : FVec Ideal S2048x1 .f32) (p : Fin 512) (u : Fin 1) :
    k0_pay1 (F := Ideal) t w (ix2 p u) = (∑ j : Fin 2048, t (ix2 p j) * w (ix2 j u)) * cK := by
  unfold k0_pay1
  simp only [shapeCast_self]
  rw [mulf_apply, broadcast_apply, dotCol_apply]
  rfl

/-- The contraction record of the 512×2048 by 2048×4 product. -/
abbrev dotMat := dot_S512x2048_S2048x4_S512x4_1_0_0_1_n_n

theorem dotMat_lhs0 (i : S512x4.Idx) (q : dotMat.contr.Idx) : (dotMat.lhsIdx i q 0).val = (i 0).val := by
  unfold DotDims.lhsIdx
  rw [dif_neg (show ¬(0 : Fin S512x2048.rank) ∈ dotMat.lhsBatch by decide), dif_pos (show (0 : Fin S512x2048.rank) ∈ dotMat.lhsNonContracting by decide)]
  rfl
theorem dotMat_lhs1 (i : S512x4.Idx) (q : dotMat.contr.Idx) : (dotMat.lhsIdx i q 1).val = (q ⟨0, by decide⟩).val :=
  dotMat.lhsIdx_val_of_single rfl i q
theorem dotMat_rhs0 (i : S512x4.Idx) (q : dotMat.contr.Idx) : (dotMat.rhsIdx i q 0).val = (q ⟨0, by decide⟩).val :=
  dotMat.rhsIdx_val_of_single rfl i q
theorem dotMat_rhs1 (i : S512x4.Idx) (q : dotMat.contr.Idx) : (dotMat.rhsIdx i q 1).val = (i 1).val := by
  unfold DotDims.rhsIdx
  rw [dif_neg (show ¬(1 : Fin S2048x4.rank) ∈ dotMat.rhsBatch by decide), dif_pos (show (1 : Fin S2048x4.rank) ∈ dotMat.rhsNonContracting by decide)]
  rfl

/-- The product into a zero accumulator, read at `(p, n)`: the sum over the 2048 landmarks of the left operand's row `p`
    times the right operand's column `n`. -/
theorem dotMat_apply (l : FVec Ideal S512x2048 .f32) (r : FVec Ideal S2048x4 .f32) (p : Fin 512) (n : Fin 4) :
    matmul (F := Ideal) dotMat (some .fp32) l r (constant S512x4 .f32 0x00000000#32) (ix2 p n)
      = ∑ j : Fin 2048, l (ix2 p j) * r (ix2 j n) := by
  refine (Ideal.matmul_constant_zero_apply dotMat (some .fp32) l r (ix2 p n)).trans ?_
  rw [← Equiv.sum_comp (contrEquiv1 dotMat 2048 rfl rfl).symm]
  refine Finset.sum_congr rfl fun k _ => ?_
  have hk := contrEquiv1_symm_val dotMat 2048 rfl rfl k
  have el : dotMat.lhsIdx (ix2 p n) ((contrEquiv1 dotMat 2048 rfl rfl).symm k) = ix2 p k := funext fun a => Fin.ext (by
    match a with
    | ⟨0, _⟩ => exact dotMat_lhs0 _ _
    | ⟨1, _⟩ => exact (dotMat_lhs1 _ _).trans hk)
  have er : dotMat.rhsIdx (ix2 p n) ((contrEquiv1 dotMat 2048 rfl rfl).symm k) = ix2 k n := funext fun a => Fin.ext (by
    match a with
    | ⟨0, _⟩ => exact (dotMat_rhs0 _ _).trans hk
    | ⟨1, _⟩ => exact dotMat_rhs1 _ _)
  rw [el, er]

/-- The four weighted sums of inverse cubes at `(p, n)`: row `p` of the cubed tile against column `n` of the weight
    matrix. -/
theorem cubeSums_apply (t : FVec Ideal S512x2048 .f32) (w : FVec Ideal S2048x4 .f32) (p : Fin 512) (n : Fin 4) :
    k0_pay2 (F := Ideal) t w (ix2 p n) = ∑ j : Fin 2048, ((t (ix2 p j) * t (ix2 p j)) * t (ix2 p j)) * w (ix2 j n) := by
  unfold k0_pay2
  simp only [shapeCast_self]
  rw [dotMat_apply]
  rfl

/-- Column `o` of the four sums, as a 512 × 1 column, read at row `p`. -/
theorem cubeSums_col (X : FVec Ideal S512x4 .f32) (o : Nat) (h : S512x4.Slices ![0, o] S512x1) (p : Fin 512) (u : Fin 1)
    (n : Fin 4) (hn : n.val = o) : extractStridedSlice S512x1 ![0, o] X h (ix2 p u) = X (ix2 p n) :=
  slice2_axis1_apply o X h p u n (by have := u.isLt; omega)

/-- The first gradient column at row `p`. -/
theorem gradCol0_apply (v : FVec Ideal S512x1 .f32) (t : FVec Ideal S512x2048 .f32) (w : FVec Ideal S2048x4 .f32) (p : Fin 512) (u : Fin 1) :
    k0_pay4 (F := Ideal) v t w (ix2 p u)
      = cKn * (v (ix2 p u) * k0_pay2 (F := Ideal) t w (ix2 p 0) - k0_pay2 (F := Ideal) t w (ix2 p 1)) := by
  unfold k0_pay4 k0_pay3
  rw [mulf_apply, broadcast_apply, subf_apply, mulf_apply, cubeSums_col _ 0 _ p u 0 rfl, cubeSums_col _ 1 _ p u 1 rfl]
  rfl

/-- The second gradient column at row `p`. -/
theorem gradCol1_apply (v : FVec Ideal S512x1 .f32) (t : FVec Ideal S512x2048 .f32) (w : FVec Ideal S2048x4 .f32) (p : Fin 512) (u : Fin 1) :
    k0_pay5 (F := Ideal) v t w (ix2 p u)
      = cKn * (v (ix2 p u) * k0_pay2 (F := Ideal) t w (ix2 p 0) - k0_pay2 (F := Ideal) t w (ix2 p 2)) := by
  unfold k0_pay5 k0_pay3
  rw [mulf_apply, broadcast_apply, subf_apply, mulf_apply, cubeSums_col _ 0 _ p u 0 rfl, cubeSums_col _ 2 _ p u 2 rfl]
  rfl

/-- The third gradient column at row `p`. -/
theorem gradCol2_apply (v : FVec Ideal S512x1 .f32) (t : FVec Ideal S512x2048 .f32) (w : FVec Ideal S2048x4 .f32) (p : Fin 512) (u : Fin 1) :
    k0_pay6 (F := Ideal) v t w (ix2 p u)
      = cKn * (v (ix2 p u) * k0_pay2 (F := Ideal) t w (ix2 p 0) - k0_pay2 (F := Ideal) t w (ix2 p 3)) := by
  unfold k0_pay6 k0_pay3
  rw [mulf_apply, broadcast_apply, subf_apply, mulf_apply, cubeSums_col _ 0 _ p u 0 rfl, cubeSums_col _ 3 _ p u 3 rfl]
  rfl

end Cert.Poisson.Body

end
-- ==== Proof.PoissonEntry.lean ====
/-
  The arrays the kernel region is launched on, read entry by entry in terms of the program's arguments: the landmarks
  transposed (3 × 2048), the landmark weights as a column (2048 × 1), and the 2048 × 4 weight matrix whose first column
  is the weights and whose other three are the weights times the landmarks' coordinates.
-/
import proofs.«117853_j5927054868974_2_alg».proof.Proof.Gen.KernelIdeal.Frame
import proofs.«117853_j5927054868974_2_alg».proof.Proof.LibKeepdims
import Idealize.ShloMosaic.Lib.ValueLayout
import Idealize.ShloMosaic.Lib.ValueIdx
import Idealize.ShloMosaic.Lib.Pipeline.Value
import Idealize.ShloMosaic.Lib.StableHlo.Run

noncomputable section

namespace Cert.Poisson.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-- The three argument arrays at launch, as functions of their indices: query points, landmarks, landmark weights. -/
abbrev argQ : FVec Ideal S32768x3 .f32 := m ((c : Thread nD τ).loc main_arg0)
abbrev argL : FVec Ideal S2048x3 .f32 := m ((c : Thread nD τ).loc main_arg1)
abbrev argG : FVec Ideal S2048 .f32 := m ((c : Thread nD τ).loc main_arg2)

/-- The landmarks as the region finds them: the argument transposed. -/
theorem landmarksT_eq : (V m c main_v0 : S3x2048.Idx → EReal)
    = transpose S3x2048 [1, 0] (argL m c) transposes_S2048x3_S3x2048_1_0 := by
  show StableHlo.after hostOps0 (fun b => m (c, b)) (Proc.devRef .tc main_v0) = _
  after_results

/-- Coordinate `k` of landmark `j`. -/
theorem landmarksT_apply (k : Fin 3) (j : Fin 2048) :
    (V m c main_v0 : S3x2048.Idx → EReal) (ix2 k j) = argL m c (ix2 j k) :=
  (congrFun (landmarksT_eq m c) (ix2 k j)).trans (transpose_ix2_apply _ _ k j)

/-- The weights as the region finds them: the argument as a column. -/
theorem weightCol_eq : (V m c main_v1 : S2048x1.Idx → EReal)
    = shapeCast S2048x1 (argG m c) shapeCasts_S2048_S2048x1 := by
  show StableHlo.after hostOps0 (fun b => m (c, b)) (Proc.devRef .tc main_v1) = _
  after_results
  rfl

/-- The weight of landmark `j`. -/
theorem weightCol_apply (j : Fin 2048) (u : Fin 1) :
    (V m c main_v1 : S2048x1.Idx → EReal) (ix2 j u) = argG m c (ix1 j) :=
  (congrFun (weightCol_eq m c) (ix2 j u)).trans (Cert.LibKeepdims.shapeCast_a_a1_apply _ _ j u)

/-- The weight matrix as the region finds it: the weight column beside the weights times the landmarks. -/
theorem weightMat_eq : (V m c main_v6 : S2048x4.Idx → EReal)
    = concatenate S2048x4 1 [⟨S2048x1, broadcastInDim S2048x1 ![0] bcast_S2048_S2048x1_0 (argG m c)⟩,
        ⟨S2048x3, mulf (F := Ideal) (φ := .f32) (broadcastInDim S2048x3 ![0, 1] bcast_S2048x1_S2048x3_0_1
            (broadcastInDim S2048x1 ![0] bcast_S2048_S2048x1_0 (argG m c)))
          (argL m c)⟩] concatenates_S2048x1_S2048x3_S2048x4_d1 := by
  show StableHlo.after hostOps0 (fun b => m (c, b)) (Proc.devRef .tc main_v6) = _
  after_results

/-- The weights broadcast to a column, at row `j`. -/
theorem bcastCol_apply (g : S2048.Idx → EReal) (j : Fin 2048) (u : Fin 1) :
    broadcastInDim S2048x1 ![0] bcast_S2048_S2048x1_0 g (ix2 j u) = g (ix1 j) :=
  broadcastInDim_apply _ _ g (ix2 j u) (ix1 j) fun a => by
    match a with
    | ⟨0, _⟩ => rfl

/-- The weight column broadcast along the three coordinates, at `(j, k)`. -/
theorem bcastMat_apply (w : S2048x1.Idx → EReal) (j : Fin 2048) (k : Fin 3) :
    broadcastInDim S2048x3 ![0, 1] bcast_S2048x1_S2048x3_0_1 w (ix2 j k) = w (ix2 j 0) :=
  broadcastInDim_apply _ _ w (ix2 j k) (ix2 j 0) fun a => by
    match a with
    | ⟨0, _⟩ => rfl
    | ⟨1, _⟩ => rfl

/-- The first column of the weight matrix is the weights. -/
theorem weightMat_apply_zero (j : Fin 2048) :
    (V m c main_v6 : S2048x4.Idx → EReal) (ix2 j 0) = argG m c (ix1 j) := by
  refine (congrFun (weightMat_eq m c) (ix2 j 0)).trans ?_
  refine (concatenate_pair_apply_left (t := S2048x4) (s₁ := S2048x1) (s₂ := S2048x3) (1 : Fin 2) _ _
    concatenates_S2048x1_S2048x3_S2048x4_d1 (ix2 j (0 : Fin 4)) rfl (ix2 j (0 : Fin 1)) fun b => by
      match b with
      | ⟨0, _⟩ => rfl
      | ⟨1, _⟩ => rfl).trans ?_
  exact bcastCol_apply _ j 0

/-- Column `k + 1` of the weight matrix is the weights times the landmarks' coordinate `k`. -/
theorem weightMat_apply_succ (j : Fin 2048) (k : Fin 3) (n : Fin 4) (hn : n.val = k.val + 1) :
    (V m c main_v6 : S2048x4.Idx → EReal) (ix2 j n)
      = argG m c (ix1 j) * argL m c (ix2 j k) := by
  refine (congrFun (weightMat_eq m c) (ix2 j n)).trans ?_
  refine (concatenate_pair_apply_right (t := S2048x4) (s₁ := S2048x1) (s₂ := S2048x3) (1 : Fin 2) _ _
    concatenates_S2048x1_S2048x3_S2048x4_d1 (ix2 j n) rfl rfl (ix2 j k) (fun b hb => by
      match b with
      | ⟨0, _⟩ => rfl
      | ⟨1, _⟩ => exact absurd rfl hb) (by show k.val + 1 = n.val; omega)).trans ?_
  rw [mulf_apply, bcastMat_apply, bcastCol_apply]

end Cert.Poisson.Entry

end
-- ==== Proof.PoissonBlocks.lean ====
/-
  From what one grid point writes back to the whole result arrays. Grid point `t` (of 64) handles the 512 queries
  `512 t, …, 512 t + 511`; the landmarks, the weight column and the weight matrix are the same whole arrays at every point.
  Row `p` of the point's two output blocks is shown to be the potential and the gradient of query `512 t + p`, and the
  64 blocks of each output tile its array.
-/
import proofs.«117853_j5927054868974_2_alg».proof.Proof.Gen.KernelIdeal.Frame
import proofs.«117853_j5927054868974_2_alg».proof.Proof.PoissonSpec
import proofs.«117853_j5927054868974_2_alg».proof.Proof.PoissonBody
import proofs.«117853_j5927054868974_2_alg».proof.Proof.PoissonEntry
import Idealize.ShloMosaic.Lib.ValueIdx
import Idealize.ShloMosaic.Lib.Pipeline.Value

noncomputable section

namespace Cert.Poisson.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Poisson Cert.Poisson.Body Cert.Poisson.Entry
open scoped BigOperators

variable (m : (ℓ : Loc nD τ sig) → Buf (Elt Ideal) ℓ) (c : Dev nD)

theorem hz : (![0, 0] : Fin 2 → Nat) = fun _ => 0 := funext fun a => by fin_cases a <;> rfl

/-! ## The body's loads: a column of the query tile, a row of the landmarks -/

theorem qcol0_idx (p : Fin 512) (u : Fin 1) : r0_0.idx (ix2 p u) = ix2 p (0 : Fin 3) := by
  funext a; apply Fin.ext
  match a with
  | ⟨0, _⟩ => show 0 + 1 * p.val = p.val; omega
  | ⟨1, _⟩ => show 0 + 1 * u.val = 0; omega
theorem qcol1_idx (p : Fin 512) (u : Fin 1) : r0_1.idx (ix2 p u) = ix2 p (1 : Fin 3) := by
  funext a; apply Fin.ext
  match a with
  | ⟨0, _⟩ => show 0 + 1 * p.val = p.val; omega
  | ⟨1, _⟩ => show 1 + 1 * u.val = 1; omega
theorem qcol2_idx (p : Fin 512) (u : Fin 1) : r0_2.idx (ix2 p u) = ix2 p (2 : Fin 3) := by
  funext a; apply Fin.ext
  match a with
  | ⟨0, _⟩ => show 0 + 1 * p.val = p.val; omega
  | ⟨1, _⟩ => show 2 + 1 * u.val = 2; omega
theorem lrow0_idx (u : Fin 1) (j : Fin 2048) : r0_3.idx (ix2 u j) = ix2 (0 : Fin 3) j := by
  funext a; apply Fin.ext
  match a with
  | ⟨0, _⟩ => show 0 + 1 * u.val = 0; omega
  | ⟨1, _⟩ => show 0 + 1 * j.val = j.val; omega
theorem lrow1_idx (u : Fin 1) (j : Fin 2048) : r0_4.idx (ix2 u j) = ix2 (1 : Fin 3) j := by
  funext a; apply Fin.ext
  match a with
  | ⟨0, _⟩ => show 1 + 1 * u.val = 1; omega
  | ⟨1, _⟩ => show 0 + 1 * j.val = j.val; omega
theorem lrow2_idx (u : Fin 1) (j : Fin 2048) : r0_5.idx (ix2 u j) = ix2 (2 : Fin 3) j := by
  funext a; apply Fin.ext
  match a with
  | ⟨0, _⟩ => show 2 + 1 * u.val = 2; omega
  | ⟨1, _⟩ => show 0 + 1 * j.val = j.val; omega

/-! ## Where each window's block sits at a grid point -/

/-- The printed index maps over the grid: the query window and both output windows are at block row `t`; the other
    three windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p`, coordinate `k` of the query tile at point `t` is query `512 t + p`. -/
theorem qblock_apply (t : Fin cfg0.N) (p : Fin 512) (k : Fin 3) (b : Fin 32768) (hb : b.val = t.val * 512 + p.val) :
    iblk m c 0 t (ix2 p k) = argQ m c (ix2 b k) := by
  obtain ⟨e0, e1, -⟩ := idx_facts t
  show V m c main_arg0 (((cfg0.win 0).blk t).view.emb (ix2 p k)) = _
  rw [V_main_arg0]
  show argQ m c (((cfg0.win 0).blk t).view.emb (ix2 p k)) = argQ m c (ix2 b k)
  have h : ((cfg0.win 0).blk t).view.emb (ix2 p k) = ix2 b k := by
    funext a; apply Fin.ext
    match a with
    | ⟨0, _⟩ => show win0_0.index t (0 : Fin 2) * 512 + 1 * p.val = b.val; omega
    | ⟨1, _⟩ => show win0_0.index t (1 : Fin 2) * 3 + 1 * k.val = k.val; omega
  rw [h]

/-- The landmark window's block is the whole transposed landmark array. -/
theorem lblock_apply (t : Fin cfg0.N) (k : Fin 3) (j : Fin 2048) :
    iblk m c 1 t (ix2 k j) = argL m c (ix2 j k) := by
  obtain ⟨-, -, e0, e1, -⟩ := idx_facts t
  show V m c main_v0 (((cfg0.win 1).blk t).view.emb (ix2 k j)) = _
  have h : ((cfg0.win 1).blk t).view.emb (ix2 k j) = ix2 k j := by
    funext a; apply Fin.ext
    match a with
    | ⟨0, _⟩ => show win0_1.index t (0 : Fin 2) * 3 + 1 * k.val = k.val; omega
    | ⟨1, _⟩ => show win0_1.index t (1 : Fin 2) * 2048 + 1 * j.val = j.val; omega
  rw [h]
  exact landmarksT_apply m c k j

/-- The weight window's block is the whole weight column. -/
theorem gblock_apply (t : Fin cfg0.N) (j : Fin 2048) (u : Fin 1) :
    iblk m c 2 t (ix2 j u) = argG m c (ix1 j) := by
  obtain ⟨-, -, -, -, e0, e1, -⟩ := idx_facts t
  show V m c main_v1 (((cfg0.win 2).blk t).view.emb (ix2 j u)) = _
  have h : ((cfg0.win 2).blk t).view.emb (ix2 j u) = ix2 j u := by
    funext a; apply Fin.ext
    match a with
    | ⟨0, _⟩ => show win0_2.index t (0 : Fin 2) * 2048 + 1 * j.val = j.val; omega
    | ⟨1, _⟩ => show win0_2.index t (1 : Fin 2) * 1 + 1 * u.val = u.val; omega
  rw [h]
  exact weightCol_apply m c j u

/-- The weight-matrix window's block is the whole weight matrix. -/
theorem wblock_apply (t : Fin cfg0.N) (j : Fin 2048) (n : Fin 4) :
    iblk m c 3 t (ix2 j n) = (V m c main_v6 : S2048x4.Idx → EReal) (ix2 j n) := by
  obtain ⟨-, -, -, -, -, -, e0, e1, -⟩ := idx_facts t
  show V m c main_v6 (((cfg0.win 3).blk t).view.emb (ix2 j n)) = _
  have h : ((cfg0.win 3).blk t).view.emb (ix2 j n) = ix2 j n := by
    funext a; apply Fin.ext
    match a with
    | ⟨0, _⟩ => show win0_3.index t (0 : Fin 2) * 2048 + 1 * j.val = j.val; omega
    | ⟨1, _⟩ => show win0_3.index t (1 : Fin 2) * 4 + 1 * n.val = n.val; omega
  rw [h]

/-! ## The body's values at a grid point, in terms of the arguments -/

/-- The three query columns the body loads, at row `p`. -/
theorem qld0 (t : Fin cfg0.N) (p : Fin 512) (u : Fin 1) (b : Fin 32768) (hb : b.val = t.val * 512 + p.val) :
    View.ld (iblk m c 0 t) r0_0 (ix2 p u) = argQ m c (ix2 b 0) := by
  show iblk m c 0 t (r0_0.idx (ix2 p u)) = _
  rw [qcol0_idx]; exact qblock_apply m c t p 0 b hb
theorem qld1 (t : Fin cfg0.N) (p : Fin 512) (u : Fin 1) (b : Fin 32768) (hb : b.val = t.val * 512 + p.val) :
    View.ld (iblk m c 0 t) r0_1 (ix2 p u) = argQ m c (ix2 b 1) := by
  show iblk m c 0 t (r0_1.idx (ix2 p u)) = _
  rw [qcol1_idx]; exact qblock_apply m c t p 1 b hb
theorem qld2 (t : Fin cfg0.N) (p : Fin 512) (u : Fin 1) (b : Fin 32768) (hb : b.val = t.val * 512 + p.val) :
    View.ld (iblk m c 0 t) r0_2 (ix2 p u) = argQ m c (ix2 b 2) := by
  show iblk m c 0 t (r0_2.idx (ix2 p u)) = _
  rw [qcol2_idx]; exact qblock_apply m c t p 2 b hb

/-- The three landmark rows the body loads, at landmark `j`. -/
theorem lld0 (t : Fin cfg0.N) (u : Fin 1) (j : Fin 2048) : View.ld (iblk m c 1 t) r0_3 (ix2 u j) = argL m c (ix2 j 0) := by
  show iblk m c 1 t (r0_3.idx (ix2 u j)) = _
  rw [lrow0_idx]; exact lblock_apply m c t 0 j
theorem lld1 (t : Fin cfg0.N) (u : Fin 1) (j : Fin 2048) : View.ld (iblk m c 1 t) r0_4 (ix2 u j) = argL m c (ix2 j 1) := by
  show iblk m c 1 t (r0_4.idx (ix2 u j)) = _
  rw [lrow1_idx]; exact lblock_apply m c t 1 j
theorem lld2 (t : Fin cfg0.N) (u : Fin 1) (j : Fin 2048) : View.ld (iblk m c 1 t) r0_5 (ix2 u j) = argL m c (ix2 j 2) := by
  show iblk m c 1 t (r0_5.idx (ix2 u j)) = _
  rw [lrow2_idx]; exact lblock_apply m c t 2 j

/-- The reciprocal-root tile the body computes at point `t`. -/
abbrev tileAt (t : Fin cfg0.N) : FVec Ideal S512x2048 .f32 :=
  k0_pay7 (F := Ideal) (View.ld (iblk m c 0 t) r0_0) (View.ld (iblk m c 0 t) r0_1) (View.ld (iblk m c 0 t) r0_2)
    (View.ld (iblk m c 1 t) r0_3) (View.ld (iblk m c 1 t) r0_4) (View.ld (iblk m c 1 t) r0_5)

/-- Its entry `(p, j)` is the reciprocal root of the regularised squared distance of query `512 t + p` and landmark `j`. -/
theorem tileAt_apply (t : Fin cfg0.N) (p : Fin 512) (j : Fin 2048) (b : Fin 32768) (hb : b.val = t.val * 512 + p.val) :
    tileAt m c t (ix2 p j) = rs (argQ m c) (argL m c) b j := by
  refine (rsTile_apply _ _ _ _ _ _ p j).trans ?_
  unfold regTile rs reg qsq qdotl lsq
  rw [qld0 m c t p 0 b hb, qld1 m c t p 0 b hb, qld2 m c t p 0 b hb, lld0 m c t 0 j, lld1 m c t 0 j, lld2 m c t 0 j]

/-- The whole weight column and the whole weight matrix, as the body loads them. -/
theorem gld (t : Fin cfg0.N) (j : Fin 2048) (u : Fin 1) : View.ld (iblk m c 2 t) r0_6 (ix2 j u) = argG m c (ix1 j) :=
  (congrFun (View.ld_unit_zero (S := S2048x1) hz _ (iblk m c 2 t)) (ix2 j u)).trans (gblock_apply m c t j u)
theorem wld_zero (t : Fin cfg0.N) (j : Fin 2048) : View.ld (iblk m c 3 t) r0_8 (ix2 j (0 : Fin 4)) = argG m c (ix1 j) :=
  (congrFun (View.ld_unit_zero (S := S2048x4) hz _ (iblk m c 3 t)) (ix2 j 0)).trans
    ((wblock_apply m c t j 0).trans (weightMat_apply_zero m c j))
theorem wld_succ (t : Fin cfg0.N) (j : Fin 2048) (k : Fin 3) (n : Fin 4) (hn : n.val = k.val + 1) :
    View.ld (iblk m c 3 t) r0_8 (ix2 j n) = argG m c (ix1 j) * argL m c (ix2 j k) :=
  (congrFun (View.ld_unit_zero (S := S2048x4) hz _ (iblk m c 3 t)) (ix2 j n)).trans
    ((wblock_apply m c t j n).trans (weightMat_apply_succ m c j k n hn))

/-! ## The two result arrays -/

/-- The potential estimates as the 32768 × 1 array the kernel writes. -/
def potArr : S32768x1.Idx → EReal := fun i => pot (argQ m c) (argL m c) (argG m c) (i 0)
/-- The gradient estimates as the 32768 × 3 array the kernel writes. -/
def gradArr : S32768x3.Idx → EReal := fun i => grad (argQ m c) (argL m c) (argG m c) (i 0) (i 1)

theorem lt64 (t : Fin cfg0.N) : t.val < 64 := lt_of_lt_of_eq t.isLt N_0

/-- What point `t` writes back of the potential is rows `512 t …` of the potential array. -/
theorem potBlock_eq (t : Fin cfg0.N) :
    (dats m 0 c).flushed 4 t = ((cfg0.win 4).blk t).view.read (Elt Ideal) (potArr m c) := by
  show (cfg0.win 4).cut (grid0.coords t) ((dats m 0 c).after 4 t) = _
  rw [after0_4]
  unfold out0_4
  rw [View.canon_unit_zero hz]
  funext y
  obtain ⟨p, u, rfl⟩ : ∃ (p : Fin 512) (u : Fin 1), y = ix2 p u := ⟨y 0, y 1, eq_ix2 y⟩
  obtain ⟨-, -, -, -, -, -, -, -, e0, e1, -⟩ := idx_facts t
  have ht := lt64 t
  have hp := p.isLt
  let b : Fin 32768 := ⟨t.val * 512 + p.val, by omega⟩
  have hemb : ((cfg0.win 4).blk t).view.emb (ix2 p u) = ix2 b u := by
    funext a; apply Fin.ext
    match a with
    | ⟨0, _⟩ => show win0_4.index t (0 : Fin 2) * 512 + 1 * p.val = t.val * 512 + p.val; omega
    | ⟨1, _⟩ => show win0_4.index t (1 : Fin 2) * 1 + 1 * u.val = u.val; omega
  show k0_pay1 (F := Ideal) (tileAt m c t) (View.ld (iblk m c 2 t) r0_6) (ix2 p u)
    = potArr m c (((cfg0.win 4).blk t).view.emb (ix2 p u))
  rw [hemb]
  refine (potCol_apply _ _ p u).trans ?_
  show _ = (∑ j : Fin 2048, rs (argQ m c) (argL m c) b j * argG m c (ix1 j)) * cK
  refine congrArg (· * cK) (Finset.sum_congr rfl fun j _ => ?_)
  rw [tileAt_apply m c t p j b rfl, gld m c t j u]

/-- The four weighted sums of inverse cubes at point `t`. -/
abbrev sumsAt (t : Fin cfg0.N) : FVec Ideal S512x4 .f32 :=
  k0_pay2 (F := Ideal) (tileAt m c t) (View.ld (iblk m c 3 t) r0_8)

/-- Column 0 of the sums at row `p` is the weighted sum of inverse cubes of query `512 t + p`. -/
theorem sumsAt_zero (t : Fin cfg0.N) (p : Fin 512) (b : Fin 32768) (hb : b.val = t.val * 512 + p.val) :
    sumsAt m c t (ix2 p 0) = csum (argQ m c) (argL m c) (argG m c) b := by
  refine (cubeSums_apply _ _ p 0).trans ?_
  unfold csum rs3
  refine Finset.sum_congr rfl fun j _ => ?_
  rw [tileAt_apply m c t p j b hb, wld_zero m c t j]

/-- Column `k + 1` is the sum weighted further by the landmarks' coordinate `k`. -/
theorem sumsAt_succ (t : Fin cfg0.N) (p : Fin 512) (k : Fin 3) (n : Fin 4) (hn : n.val = k.val + 1) (b : Fin 32768)
    (hb : b.val = t.val * 512 + p.val) :
    sumsAt m c t (ix2 p n) = gsum (argQ m c) (argL m c) (argG m c) b k := by
  refine (cubeSums_apply _ _ p n).trans ?_
  unfold gsum rs3
  refine Finset.sum_congr rfl fun j _ => ?_
  rw [tileAt_apply m c t p j b hb, wld_succ m c t j k n hn]

/-- One row of one gradient column, from the query coordinate `q` it multiplies. -/
theorem gradRow (t : Fin cfg0.N) (p : Fin 512) (k : Fin 3) (n : Fin 4) (hn : n.val = k.val + 1) (b : Fin 32768)
    (hb : b.val = t.val * 512 + p.val) (q : EReal) (hq : q = argQ m c (ix2 b k)) :
    cKn * (q * sumsAt m c t (ix2 p 0) - sumsAt m c t (ix2 p n)) = grad (argQ m c) (argL m c) (argG m c) b k := by
  rw [sumsAt_zero m c t p b hb, sumsAt_succ m c t p k n hn b hb, hq]
  rfl

/-- What point `t` writes back of the gradient is rows `512 t …` of the gradient array: each of the three column
    stores holds its column of those rows. -/
theorem gradBlock_eq (t : Fin cfg0.N) :
    (dats m 0 c).flushed 5 t = ((cfg0.win 5).blk t).view.read (Elt Ideal) (gradArr m c) := by
  show (cfg0.win 5).cut (grid0.coords t) ((dats m 0 c).after 5 t) = _
  rw [after0_5]
  unfold out0_5
  obtain ⟨-, -, -, -, -, -, -, -, -, -, e0, e1⟩ := idx_facts t
  have ht := lt64 t
  have hemb : ∀ (p : Fin 512) (k : Fin 3) (b : Fin 32768), b.val = t.val * 512 + p.val →
      ((cfg0.win 5).blk t).view.emb (ix2 p k) = ix2 b k := by
    intro p k b hb
    funext a; apply Fin.ext
    match a with
    | ⟨0, _⟩ => show win0_5.index t (0 : Fin 2) * 512 + 1 * p.val = b.val; omega
    | ⟨1, _⟩ => show win0_5.index t (1 : Fin 2) * 3 + 1 * k.val = k.val; omega
  funext y
  refine View.canon_apply_of_pieces (Val := Elt Ideal) (S := S512x3) (e := .f32)
    (fun y => gradArr m c (((cfg0.win 5).blk t).view.emb y)) _ ?_ y (cover0_5 _ _ _ y)
  intro pc hpc
  simp only [List.mem_cons, List.mem_nil_iff, or_false] at hpc
  rcases hpc with rfl | rfl | rfl
  · intro (x : S512x1.Idx)
    obtain ⟨p, u, rfl⟩ : ∃ (p : Fin 512) (u : Fin 1), x = ix2 p u := ⟨x 0, x 1, eq_ix2 x⟩
    have hp := p.isLt
    show k0_pay6 (F := Ideal) (View.ld (iblk m c 0 t) r0_2) (tileAt m c t) (View.ld (iblk m c 3 t) r0_8) (ix2 p u)
      = gradArr m c (((cfg0.win 5).blk t).view.emb (r0_2.idx (ix2 p u)))
    rw [qcol2_idx, hemb p 2 ⟨t.val * 512 + p.val, by omega⟩ rfl]
    refine (gradCol2_apply _ _ _ p u).trans ?_
    exact gradRow m c t p 2 3 rfl _ rfl _ (qld2 m c t p u _ rfl)
  · intro (x : S512x1.Idx)
    obtain ⟨p, u, rfl⟩ : ∃ (p : Fin 512) (u : Fin 1), x = ix2 p u := ⟨x 0, x 1, eq_ix2 x⟩
    have hp := p.isLt
    show k0_pay5 (F := Ideal) (View.ld (iblk m c 0 t) r0_1) (tileAt m c t) (View.ld (iblk m c 3 t) r0_8) (ix2 p u)
      = gradArr m c (((cfg0.win 5).blk t).view.emb (r0_1.idx (ix2 p u)))
    rw [qcol1_idx, hemb p 1 ⟨t.val * 512 + p.val, by omega⟩ rfl]
    refine (gradCol1_apply _ _ _ p u).trans ?_
    exact gradRow m c t p 1 2 rfl _ rfl _ (qld1 m c t p u _ rfl)
  · intro (x : S512x1.Idx)
    obtain ⟨p, u, rfl⟩ : ∃ (p : Fin 512) (u : Fin 1), x = ix2 p u := ⟨x 0, x 1, eq_ix2 x⟩
    have hp := p.isLt
    show k0_pay4 (F := Ideal) (View.ld (iblk m c 0 t) r0_0) (tileAt m c t) (View.ld (iblk m c 3 t) r0_8) (ix2 p u)
      = gradArr m c (((cfg0.win 5).blk t).view.emb (r0_0.idx (ix2 p u)))
    rw [qcol0_idx, hemb p 0 ⟨t.val * 512 + p.val, by omega⟩ rfl]
    refine (gradCol0_apply _ _ _ p u).trans ?_
    exact gradRow m c t p 0 1 rfl _ rfl _ (qld0 m c t p u _ rfl)

/-! ## The 64 blocks tile each result array -/

theorem mem_potBlock (t : Fin cfg0.N) (i : S32768x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v7_0).slice (win0_4.rect t)).set ↔ _
  rw [View.set_slice_whole, Rect.mem_set_unit]
  exact Iff.rfl

theorem mem_gradBlock (t : Fin cfg0.N) (i : S32768x3.Idx) :
    i ∈ ((cfg0.win 5).blk t).view.set ↔ ∀ a : Fin 2, win0_5.index t a * S512x3.size a ≤ (i a).val
      ∧ (i a).val < win0_5.index t a * S512x3.size a + S512x3.size a := by
  show i ∈ ((View.whole main_v7_1).slice (win0_5.rect t)).set ↔ _
  rw [View.set_slice_whole, Rect.mem_set_unit]
  exact Iff.rfl

/-- Row `r` of the potential array is written by point `r / 512`. -/
theorem pot_cover (i : S32768x1.Idx) :
    ∃ t : Fin cfg0.N, (cfg0.win 4).flush t = true ∧ i ∈ ((cfg0.win 4).blk t).view.set := by
  have hi0 : (i 0).val < 32768 := (i 0).isLt
  have hi1 : (i 1).val < 1 := (i 1).isLt
  have hN : (i 0).val / 512 < cfg0.N := by
    have h64 : cfg0.N = 64 := N_0
    rw [h64]; omega
  obtain ⟨-, -, -, -, -, -, -, -, e0, e1, -⟩ := idx_facts ⟨(i 0).val / 512, hN⟩
  refine ⟨⟨(i 0).val / 512, hN⟩, flush0_4 _, ?_⟩
  rw [mem_potBlock]
  intro a
  match a with
  | ⟨0, _⟩ =>
    show win0_4.index ⟨(i 0).val / 512, hN⟩ (0 : Fin 2) * 512 ≤ (i 0).val
      ∧ (i 0).val < win0_4.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, hN⟩ (1 : Fin 2) * 1 ≤ (i 1).val
      ∧ (i 1).val < win0_4.index ⟨(i 0).val / 512, hN⟩ (1 : Fin 2) * 1 + 1
    rw [e1]; omega

/-- Row `r` of the gradient array is written by point `r / 512`. -/
theorem grad_cover (i : S32768x3.Idx) :
    ∃ t : Fin cfg0.N, (cfg0.win 5).flush t = true ∧ i ∈ ((cfg0.win 5).blk t).view.set := by
  have hi0 : (i 0).val < 32768 := (i 0).isLt
  have hi1 : (i 1).val < 3 := (i 1).isLt
  have hN : (i 0).val / 512 < cfg0.N := by
    have h64 : cfg0.N = 64 := N_0
    rw [h64]; omega
  obtain ⟨-, -, -, -, -, -, -, -, -, -, e0, e1⟩ := idx_facts ⟨(i 0).val / 512, hN⟩
  refine ⟨⟨(i 0).val / 512, hN⟩, flush0_5 _, ?_⟩
  rw [mem_gradBlock]
  intro a
  match a with
  | ⟨0, _⟩ =>
    show win0_5.index ⟨(i 0).val / 512, hN⟩ (0 : Fin 2) * 512 ≤ (i 0).val
      ∧ (i 0).val < win0_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hN⟩ (1 : Fin 2) * 3 ≤ (i 1).val
      ∧ (i 1).val < win0_5.index ⟨(i 0).val / 512, hN⟩ (1 : Fin 2) * 3 + 3
    rw [e1]; omega

/-- After the run the potential window's array is the potential array, -/
theorem pot_final : (dats m 0 c).arrAt 4 cfg0.N = potArr m c :=
  (dats m 0 c).arrAt_eq_of_cover 4 (potArr m c) (fun t _ => potBlock_eq m c t) pot_cover

/-- and the gradient window's array is the gradient array. -/
theorem grad_final : (dats m 0 c).arrAt 5 cfg0.N = gradArr m c :=
  (dats m 0 c).arrAt_eq_of_cover 5 (gradArr m c) (fun t _ => gradBlock_eq m c t) grad_cover

end Cert.Poisson.Blocks

end
-- ==== Proof.LibFlatten.lean ====
/-
  A layout operation read at an index given by coordinates: a column `[a, 1]` flattened to a vector `[a]` (what taking
  column 0 of a one-column matrix, `x[:, 0]`, lowers to). For any extent and any element type. (The row form
  `[1, a] → [a]` is in the library's Lib/ValueLayout.lean; this is its transpose.)
-/
import Idealize.ShloMosaic.Lib.Pipeline.Value
import Idealize.ShloMosaic.Lib.ValueIdx

namespace Cert.LibFlatten

open Idealize.ShloMosaic Idealize.ShloMosaic.ValueIdx

variable {α : Type}

/-- A column `[a, 1]` flattened to `[a]` reads, at `i`, the column's entry in row `i`: both indices have row-major
    position `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibFlatten
-- ==== Proof.PoissonRun.lean ====
/-
  The kernel program's run, with its two results named: every execution ends with the first result (the potential
  array flattened from 32768 × 1 to 32768) and the second (the gradient array) at the estimator's functions of the
  arguments, and the arguments unchanged.
-/
import proofs.«117853_j5927054868974_2_alg».proof.Proof.Gen.KernelIdeal.Frame
import proofs.«117853_j5927054868974_2_alg».proof.Proof.PoissonBlocks
import proofs.«117853_j5927054868974_2_alg».proof.Proof.LibFlatten
import Idealize.ShloMosaic.Lib.ValueIdx
import Idealize.ShloMosaic.Lib.Pipeline.Value
import Idealize.ShloMosaic.Lib.StableHlo.Run

noncomputable section

namespace Cert.Poisson.Run

open Cert.KernelIdeal Cert.KernelIdeal.Gen Idealize.ShloMosaic Idealize.ShloMosaic.TcCoe Idealize.ShloMosaic.ValueIdx
open Idealize.SL.Sem Idealize.ShloMosaic.StableHlo
open Cert.Poisson Cert.Poisson.Entry Cert.Poisson.Blocks

variable (m : (ℓ : Loc nD τ sig) → Buf (Elt Ideal) ℓ) (ρ : Dev nD → PrngReg) (c : Dev nD)

/-- The potential as the flat array of 32768 entries. -/
def potFlat : S32768.Idx → EReal := fun i => pot (argQ m c) (argL m c) (argG m c) (i 0)

/-- The one host line after the region flattens the potential window's final array. -/
theorem tail_eq : Pipeline.afterTail₀ cfgs (dats m) 0 (V0 m) [hostOps1] c main_v8 = potFlat m c := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v7_0) = potArr m c :=
    (Pipeline.withArrays_arr spec0 launch0.win.arr_inj c _ _ 4).trans (pot_final m c)
  funext i
  obtain ⟨b, rfl⟩ : ∃ b : Fin 32768, i = ix1 b := ⟨i 0, eq_ix1 i⟩
  show shapeCast S32768 (Pipeline.withArrays (cfgs 0).spec c (V0 m c) (fun w => (dats m 0 c).arrAt w (cfgs 0).N)
      (Proc.devRef .tc main_v7_0)) shapeCasts_S32768x1_S32768 (ix1 b) = potFlat m c (ix1 b)
  rw [hw]
  exact Cert.LibFlatten.shapeCast_a1_a_apply (potArr m c) _ b

/-- THE KERNEL'S RUN: every weakly fair execution terminates with the first result at the flat potential array, the
    second at the gradient array, and the three arguments as launched. -/
theorem run : θ_run defs (onTc (τ := τ) (main (F := Ideal))) ⟨m, fun _ => 0, ρ⟩ fun r => ∀ c : Dev nD,
      r.2.mem ((c.tc : Thread nD τ).loc main_v8) = potFlat m c
      ∧ r.2.mem ((c.tc : Thread nD τ).loc main_v7_1) = gradArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 5).trans (grad_final m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Poisson.Run

end
-- ==== Proof.lean ====
/-
  The certificate of the Poisson estimator kernel against its reference.

  Both programs estimate, for 32768 query points, a potential and its gradient as averages over 2048 weighted
  landmarks of the regularised free-space kernel (|x − y|² + ε²)^(−1/2) and of its gradient. The kernel works tile by
  tile (512 queries per grid point), forms the sums over the landmarks as matrix products, uses the cube of the
  reciprocal root for the power −3/2, and multiplies by one constant K = C / 2048 where the reference multiplies by
  C = 1/(4π) inside the sum and divides by 2048 outside. Over the extended reals these agree exactly once every input
  is a real number: the regularised distance is then a real ≥ ε² > 0, a product distributes over the finite sums, and
  t^(−3/2) is the cube of t^(−1/2).

  The three frames are the generated ones (the reference's is its generated run with the results dropped); nothing was
  rewritten on the way to the idealised kernel; and the value claim joins the kernel's run (its two results as the
  estimator's functions of the arguments) to the reference's run read index by index, under the finiteness the
  precondition gives.
-/
import proofs.«117853_j5927054868974_2_alg».proof.Defs
import proofs.«117853_j5927054868974_2_alg».proof.Proof.Gen.Kernel
import proofs.«117853_j5927054868974_2_alg».proof.Proof.Gen.Kernel.Skeleton
import proofs.«117853_j5927054868974_2_alg».proof.Proof.Gen.Kernel.Launch
import proofs.«117853_j5927054868974_2_alg».proof.Proof.Gen.Kernel.Points
import proofs.«117853_j5927054868974_2_alg».proof.Proof.Gen.Kernel.Frame
import proofs.«117853_j5927054868974_2_alg».proof.Proof.Gen.KernelIdeal
import proofs.«117853_j5927054868974_2_alg».proof.Proof.Gen.KernelIdeal.Skeleton
import proofs.«117853_j5927054868974_2_alg».proof.Proof.Gen.KernelIdeal.Launch
import proofs.«117853_j5927054868974_2_alg».proof.Proof.Gen.KernelIdeal.Points
import proofs.«117853_j5927054868974_2_alg».proof.Proof.Gen.KernelIdeal.Frame
import proofs.«117853_j5927054868974_2_alg».proof.Proof.Gen.ReferenceIdeal
import proofs.«117853_j5927054868974_2_alg».proof.Proof.Gen.ReferenceIdeal.Run
import proofs.«117853_j5927054868974_2_alg».proof.Proof.Gen.ReferenceIdeal.Read
import proofs.«117853_j5927054868974_2_alg».proof.Proof.Gen.Pre_finite_inputs
import proofs.«117853_j5927054868974_2_alg».proof.Proof.FiniteInputs
import proofs.«117853_j5927054868974_2_alg».proof.Proof.PoissonReference
import proofs.«117853_j5927054868974_2_alg».proof.Proof.PoissonRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealised kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The two idealised programs, from memories agreeing on the arguments, end with equal results: the kernel's at the
    estimator's potential and gradient (its run), the reference's at its own two terms, which are the same functions
    when the inputs are reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Poisson.Run.potFlat m c, fun c => Cert.Poisson.Blocks.gradArr m c, Cert.Poisson.Run.run m ρ, ?_⟩
  refine (θ_run Cert.ReferenceIdeal.defs _ _).mono (fun _ h c => ?_) (Cert.ReferenceIdeal.Value.run (F := Ideal) m' ρ')
  obtain ⟨hq, hl, hg⟩ := Cert.Poisson.real_of_finite_inputs _ _ _ (hpre c)
  refine ⟨?_, ?_, (h c).2.2.1, (h c).2.2.2.1, (h c).2.2.2.2⟩
  · rw [(h c).1, Cert.ReferenceIdeal.Read.val_main_v26_eq, (hagree c).1, (hagree c).2.1, (hagree c).2.2]
    exact Cert.Poisson.reference_pot _ _ _ hq hl hg
  · rw [(h c).2.1, Cert.ReferenceIdeal.Read.val_main_v41_eq, (hagree c).1, (hagree c).2.1, (hagree c).2.2]
    exact Cert.Poisson.reference_grad _ _ _ hq hl hg

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
